-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x3 : Shape := ⟨4, ![32, 512, 512, 3]⟩
abbrev S768x256 : Shape := ⟨2, ![768, 256]⟩
abbrev S256 : Shape := ⟨1, ![256]⟩
abbrev S32x1x256 : Shape := ⟨3, ![32, 1, 256]⟩
abbrev S32x1025x256 : Shape := ⟨3, ![32, 1025, 256]⟩
abbrev S_ : Shape := ⟨0, ![]⟩

class Facts : Prop where
  bcast_S_S32x512x512x3 : S_.BroadcastsInDim S32x512x512x3 (![] : Fin 0 → Fin S32x512x512x3.rank)
  reducesTo_S32x512x512x3_S_d0_1_2_3 : S32x512x512x3.ReducesTo [0, 1, 2, 3] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S32x1x256 : S_.BroadcastsInDim S32x1x256 (![] : Fin 0 → Fin S32x1x256.rank)
  reducesTo_S32x1x256_S_d0_1_2 : S32x1x256.ReducesTo [0, 1, 2] S_
  bcast_S_S32x1025x256 : S_.BroadcastsInDim S32x1025x256 (![] : Fin 0 → Fin S32x1025x256.rank)
  reducesTo_S32x1025x256_S_d0_1_2 : S32x1025x256.ReducesTo [0, 1, 2] S_

variable [Facts]

def fn_part1 {F : FTy → Type} [FloatOps F] (main_arg4 : FVec F S32x1025x256 .f32) (main_v13 : IVec S_ 1) (main_v16 : IVec S32x1x256 1) : IVec S_ 1 :=
  let main_c_5 : IVec S_ 1 := constantI S_ 1 1#1
  let main_v17 : IVec S_ 1 := (fun x v => Host.reduce IntOp.andi x v reducesTo_S32x1x256_S_d0_1_2 h_S_) main_v16 main_c_5
  let main_v18 : IVec S_ 1 := andi main_v13 main_v17
  let main_v19 : FVec F S32x1025x256 .f32 := Host.absf main_arg4
  let main_cst_6 : FVec F S_ .f32 := constant S_ .f32 0x7F800000#32
  let main_v20 : FVec F S32x1025x256 .f32 := broadcastInDim S32x1025x256 ![] bcast_S_S32x1025x256 main_cst_6
  let main_v21 : IVec S32x1025x256 1 := cmpf .olt main_v19 main_v20
  let main_c_7 : IVec S_ 1 := constantI S_ 1 1#1
  let main_v22 : IVec S_ 1 := (fun x v => Host.reduce IntOp.andi x v reducesTo_S32x1025x256_S_d0_1_2 h_S_) main_v21 main_c_7
  let main_v23 : IVec S_ 1 := andi main_v18 main_v22
  main_v23

def fn {F : FTy → Type} [FloatOps F] (main_arg0 : FVec F S32x512x512x3 .f32) (main_arg1 : FVec F S768x256 .f32) (main_arg2 : FVec F S256 .f32) (main_arg3 : FVec F S32x1x256 .f32) (main_arg4 : FVec F S32x1025x256 .f32) : IVec S_ 1 :=
  let main_v0 : FVec F S32x512x512x3 .f32 := Host.absf main_arg0
  let main_cst : FVec F S_ .f32 := constant S_ .f32 0x7F800000#32
  let main_v1 : FVec F S32x512x512x3 .f32 := broadcastInDim S32x512x512x3 ![] bcast_S_S32x512x512x3 main_cst
  let main_v2 : IVec S32x512x512x3 1 := cmpf .olt main_v0 main_v1
  let main_c : IVec S_ 1 := constantI S_ 1 1#1
  let main_v3 : IVec S_ 1 := (fun x v => Host.reduce IntOp.andi x v reducesTo_S32x512x512x3_S_d0_1_2_3 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S32x1x256 .f32 := Host.absf main_arg3
  let main_cst_4 : FVec F S_ .f32 := constant S_ .f32 0x7F800000#32
  let main_v15 : FVec F S32x1x256 .f32 := broadcastInDim S32x1x256 ![] bcast_S_S32x1x256 main_cst_4
  let main_v16 : IVec S32x1x256 1 := cmpf .olt main_v14 main_v15
  fn_part1 (F := F) main_arg4 main_v13 main_v16
-- ==== Kernel.lean ====
abbrev S32x512x512x3 : Shape := ⟨4, ![32, 512, 512, 3]⟩
abbrev S768x256 : Shape := ⟨2, ![768, 256]⟩
abbrev S256 : Shape := ⟨1, ![256]⟩
abbrev S32x1x256 : Shape := ⟨3, ![32, 1, 256]⟩
abbrev S32x1025x256 : Shape := ⟨3, ![32, 1025, 256]⟩
abbrev S32x32x16x32x16x3 : Shape := ⟨6, ![32, 32, 16, 32, 16, 3]⟩
abbrev S32x32x32x16x16x3 : Shape := ⟨6, ![32, 32, 32, 16, 16, 3]⟩
abbrev S32x1024x768 : Shape := ⟨3, ![32, 1024, 768]⟩
abbrev S1x256 : Shape := ⟨2, ![1, 256]⟩
abbrev S1x1024x768 : Shape := ⟨3, ![1, 1024, 768]⟩
abbrev S1x1x256 : Shape := ⟨3, ![1, 1, 256]⟩
abbrev S1x1025x256 : Shape := ⟨3, ![1, 1025, 256]⟩
abbrev S1024x768 : Shape := ⟨2, ![1024, 768]⟩
abbrev S1024x256 : Shape := ⟨2, ![1024, 256]⟩
abbrev S1x1024x256 : Shape := ⟨3, ![1, 1024, 256]⟩

abbrev nBuf : Space → Nat
  | .hbm => 12
  | .vmem => 10
  | .smem => 0
  | _ => 0

abbrev bufTy : (tb : Table) → Fin (tcTables nBuf tb) → BufTy
  | .hbm, ⟨0, _⟩ => ⟨S32x512x512x3, .f32⟩
  | .hbm, ⟨1, _⟩ => ⟨S768x256, .f32⟩
  | .hbm, ⟨2, _⟩ => ⟨S256, .f32⟩
  | .hbm, ⟨3, _⟩ => ⟨S32x1x256, .f32⟩
  | .hbm, ⟨4, _⟩ => ⟨S32x1025x256, .f32⟩
  | .hbm, ⟨5, _⟩ => ⟨S32x32x16x32x16x3, .f32⟩
  | .hbm, ⟨6, _⟩ => ⟨S32x32x32x16x16x3, .f32⟩
  | .hbm, ⟨7, _⟩ => ⟨S32x1024x768, .f32⟩
  | .hbm, ⟨8, _⟩ => ⟨S32x1024x768, .bf16⟩
  | .hbm, ⟨9, _⟩ => ⟨S768x256, .bf16⟩
  | .hbm, ⟨10, _⟩ => ⟨S1x256, .f32⟩
  | .hbm, ⟨11, _⟩ => ⟨S32x1025x256, .f32⟩
  | .local _ .vmem, ⟨0, _⟩ => ⟨S1x1024x768, .bf16⟩
  | .local _ .vmem, ⟨1, _⟩ => ⟨S1x1024x768, .bf16⟩
  | .local _ .vmem, ⟨2, _⟩ => ⟨S768x256, .bf16⟩
  | .local _ .vmem, ⟨3, _⟩ => ⟨S1x256, .f32⟩
  | .local _ .vmem, ⟨4, _⟩ => ⟨S1x1x256, .f32⟩
  | .local _ .vmem, ⟨5, _⟩ => ⟨S1x1x256, .f32⟩
  | .local _ .vmem, ⟨6, _⟩ => ⟨S1x1025x256, .f32⟩
  | .local _ .vmem, ⟨7, _⟩ => ⟨S1x1025x256, .f32⟩
  | .local _ .vmem, ⟨8, _⟩ => ⟨S1x1025x256, .f32⟩
  | .local _ .vmem, ⟨9, _⟩ => ⟨S1x1025x256, .f32⟩
  | _, _ => ⟨S32x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1025x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1025x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x512x512x3_S32x32x16x32x16x3 : S32x512x512x3.ShapeCasts S32x32x16x32x16x3
  transposes_S32x32x16x32x16x3_S32x32x32x16x16x3_0_1_3_2_4_5 : S32x32x16x32x16x3.Transposes [0, 1, 3, 2, 4, 5] S32x32x32x16x16x3
  shapeCasts_S32x32x32x16x16x3_S32x1024x768 : S32x32x32x16x16x3.ShapeCasts S32x1024x768
  bitsLt_bf16_f32 : FTy.bits .bf16 < FTy.bits .f32
  shapeCasts_S256_S1x256 : S256.ShapeCasts S1x256
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x1025x256_S1x1x256_0_0_0 : ∀ a, (![0, 0, 0] : Fin 3 → Nat) a + S1x1x256.size a ≤ S1x1025x256.size a
  shapeCasts_S1x256_S1x1x256 : S1x256.ShapeCasts S1x1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x1025x256_S1x1024x256_0_1_0 : ∀ a, (![0, 1, 0] : Fin 3 → Nat) a + S1x1024x256.size a ≤ S1x1025x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S1024x768_S768x256_S1024x256_1_0_0_1_n_n_wf : DotDims.WF S1024x768 S768x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S32x1024x768.size a
  hwx0_0 : ∀ i : grid0.Coords, EltTy.bits .bf16 = 32 ∨ (Rect.block (s := S32x1024x768) S1x1024x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .bf16 = 32 ∨ (Rect.block (s := S768x256) S768x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S32x1x256.size a
  hwx0_3 : ∀ i : grid0.Coords, EltTy.bits .f32 = 32 ∨ (Rect.block (s := S32x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1025x256.size a ≤ S32x1025x256.size a
  hwx0_4 : ∀ i : grid0.Coords, EltTy.bits .f32 = 32 ∨ (Rect.block (s := S32x1025x256) S1x1025x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1025x256.size a ≤ S32x1025x256.size a
  hwx0_5 : ∀ i : grid0.Coords, EltTy.bits .f32 = 32 ∨ (Rect.block (s := S32x1025x256) S1x1025x256.size (cc0_transform_5 i) (hinb0_5 i)).WholeWords (EltTy.packing .f32)

variable [Facts₀]

def dot_S1024x768_S768x256_S1024x256_1_0_0_1_n_n : DotDims S1024x768 S768x256 S1024x256 where
  lhsContracting := [1]
  rhsContracting := [0]
  lhsNonContracting := [0]
  rhsNonContracting := [1]
  lhsBatch := []
  rhsBatch := []
  wf := dot_S1024x768_S768x256_S1024x256_1_0_0_1_n_n_wf

abbrev win0_0 : Pipeline.Window sig grid0 :=
  Pipeline.Window.ofSpec (Memref.whole main_v3) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1025x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1025x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x512x3 : Shape := ⟨4, ![32, 512, 512, 3]⟩
abbrev S768x256 : Shape := ⟨2, ![768, 256]⟩
abbrev S256 : Shape := ⟨1, ![256]⟩
abbrev S32x1x256 : Shape := ⟨3, ![32, 1, 256]⟩
abbrev S32x1025x256 : Shape := ⟨3, ![32, 1025, 256]⟩
abbrev S32x32x16x32x16x3 : Shape := ⟨6, ![32, 32, 16, 32, 16, 3]⟩
abbrev S32x32x32x16x16x3 : Shape := ⟨6, ![32, 32, 32, 16, 16, 3]⟩
abbrev S32x1024x768 : Shape := ⟨3, ![32, 1024, 768]⟩
abbrev S32x1024x256 : Shape := ⟨3, ![32, 1024, 256]⟩
abbrev S1x1x256 : Shape := ⟨3, ![1, 1, 256]⟩

abbrev nBuf : Space → Nat
  | .hbm => 14
  | .vmem => 0
  | .smem => 0
  | _ => 0

abbrev bufTy : (tb : Table) → Fin (tcTables nBuf tb) → BufTy
  | .hbm, ⟨0, _⟩ => ⟨S32x512x512x3, .f32⟩
  | .hbm, ⟨1, _⟩ => ⟨S768x256, .f32⟩
  | .hbm, ⟨2, _⟩ => ⟨S256, .f32⟩
  | .hbm, ⟨3, _⟩ => ⟨S32x1x256, .f32⟩
  | .hbm, ⟨4, _⟩ => ⟨S32x1025x256, .f32⟩
  | .hbm, ⟨5, _⟩ => ⟨S32x32x16x32x16x3, .f32⟩
  | .hbm, ⟨6, _⟩ => ⟨S32x32x32x16x16x3, .f32⟩
  | .hbm, ⟨7, _⟩ => ⟨S32x1024x768, .f32⟩
  | .hbm, ⟨8, _⟩ => ⟨S32x1024x256, .f32⟩
  | .hbm, ⟨9, _⟩ => ⟨S1x1x256, .f32⟩
  | .hbm, ⟨10, _⟩ => ⟨S32x1024x256, .f32⟩
  | .hbm, ⟨11, _⟩ => ⟨S32x1024x256, .f32⟩
  | .hbm, ⟨12, _⟩ => ⟨S32x1025x256, .f32⟩
  | .hbm, ⟨13, _⟩ => ⟨S32x1025x256, .f32⟩
  | _, _ => ⟨S32x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  shapeCasts_S32x512x512x3_S32x32x16x32x16x3 : S32x512x512x3.ShapeCasts S32x32x16x32x16x3
  transposes_S32x32x16x32x16x3_S32x32x32x16x16x3_0_1_3_2_4_5 : S32x32x16x32x16x3.Transposes [0, 1, 3, 2, 4, 5] S32x32x32x16x16x3
  shapeCasts_S32x32x32x16x16x3_S32x1024x768 : S32x32x32x16x16x3.ShapeCasts S32x1024x768
  bcast_S256_S1x1x256_2 : S256.BroadcastsInDim S1x1x256 (![2] : Fin 1 → Fin S1x1x256.rank)
  bcast_S1x1x256_S32x1024x256_0_1_2 : S1x1x256.BroadcastsInDim S32x1024x256 (![0, 1, 2] : Fin 3 → Fin S32x1024x256.rank)
  concatenates_S32x1x256_S32x1024x256_S32x1025x256_d1 : Shape.Concatenates [S32x1x256, S32x1024x256] S32x1025x256 1
  dot_S32x1024x768_S768x256_S32x1024x256_2_0_01_1_n_n_wf : DotDims.WF S32x1024x768 S768x256 S32x1024x256 [2] [0] [0, 1] [1] [] []

variable [Facts₀]

def dot_S32x1024x768_S768x256_S32x1024x256_2_0_01_1_n_n : DotDims S32x1024x768 S768x256 S32x1024x256 where
  lhsContracting := [2]
  rhsContracting := [0]
  lhsNonContracting := [0, 1]
  rhsNonContracting := [1]
  lhsBatch := []
  rhsBatch := []
  wf := dot_S32x1024x768_S768x256_S32x1024x256_2_0_01_1_n_n_wf

class Facts : Prop extends Facts₀ where

variable [Facts]
-- ==== Proof.Embed.lean ====
/-
  The patch embedding as ONE function of its arrays, index by index, over the extended reals.

  A batch element `t` has 1025 sequence positions of 256 features. Position 0 is the class token plus its
  positional embedding. Position `1 + r` is patch `r` (768 numbers) projected by the weight matrix,
  `∑ k, patch r k · W k h`, plus the bias `b h`, plus the positional embedding of position `1 + r`:

      out t 0       h = cls t 0 h + pe t 0 h
      out t (1 + r) h = ((∑ k, P t r k · W k h) + b h) + pe t (1 + r) h

  `embedRow` says this for one batch element, from that element's blocks; `embed` for the whole arrays;
  `embedRow_eq`: when the blocks are batch element `t` of the arrays, `embedRow` is row `t` of `embed`.
  Only sums and products of extended reals, each written in one grouping: nothing here needs the entries finite.
-/
import Idealize.ShloMosaic.PureOps.Ideal
import Idealize.ShloMosaic.Lib.ValueIdx

noncomputable section

namespace Cert.PatchEmbed

open Idealize.ShloMosaic Idealize.ShloMosaic.ValueIdx

/-- The patch that sequence position `j ≥ 1` shows is patch `j - 1`. (Position 0 shows the class token and no
    patch; the value chosen there is never read.) -/
def patchOf (j : Fin 1025) : Fin 1024 := ⟨j.val - 1, by have := j.isLt; omega⟩

/-- Position `r + 1` shows patch `r`. -/
theorem patchOf_of_val (j : Fin 1025) (r : Fin 1024) (h : j.val = r.val + 1) : patchOf j = r :=
  Fin.ext (by show j.val - 1 = r.val; omega)

/-- One batch element of the embedding, from its blocks: `a` the element's 1024 patches, `w` the weights, `b` the
    bias as a row, `cls` the element's class token, `pe` its positional embeddings. -/
def embedRow (a : (⟨3, ![1, 1024, 768]⟩ : Shape).Idx → EReal) (w : (⟨2, ![768, 256]⟩ : Shape).Idx → EReal)
    (b : (⟨2, ![1, 256]⟩ : Shape).Idx → EReal) (cls : (⟨3, ![1, 1, 256]⟩ : Shape).Idx → EReal)
    (pe : (⟨3, ![1, 1025, 256]⟩ : Shape).Idx → EReal) : (⟨3, ![1, 1025, 256]⟩ : Shape).Idx → EReal := fun y =>
  if (y 1).val = 0 then cls (ix3 0 0 (y 2)) + pe y
  else ((∑ k : Fin 768, a (ix3 0 (patchOf (y 1)) k) * w (ix2 k (y 2))) + b (ix2 0 (y 2))) + pe y

/-- The whole embedding: `P` the patches of every batch element, `W` the weights, `b` the bias, `cls` the class
    tokens, `pe` the positional embeddings. -/
def embed (P : (⟨3, ![32, 1024, 768]⟩ : Shape).Idx → EReal) (W : (⟨2, ![768, 256]⟩ : Shape).Idx → EReal)
    (b : (⟨1, ![256]⟩ : Shape).Idx → EReal) (cls : (⟨3, ![32, 1, 256]⟩ : Shape).Idx → EReal)
    (pe : (⟨3, ![32, 1025, 256]⟩ : Shape).Idx → EReal) : (⟨3, ![32, 1025, 256]⟩ : Shape).Idx → EReal := fun i =>
  if (i 1).val = 0 then cls (ix3 (i 0) 0 (i 2)) + pe i
  else ((∑ k : Fin 768, P (ix3 (i 0) (patchOf (i 1)) k) * W (ix2 k (i 2))) + b (ix1 (i 2))) + pe i

/-- Position 0 of a batch element: the class token plus its positional embedding. -/
theorem embedRow_zero (a : (⟨3, ![1, 1024, 768]⟩ : Shape).Idx → EReal) (w : (⟨2, ![768, 256]⟩ : Shape).Idx → EReal)
    (b : (⟨2, ![1, 256]⟩ : Shape).Idx → EReal) (cls : (⟨3, ![1, 1, 256]⟩ : Shape).Idx → EReal)
    (pe : (⟨3, ![1, 1025, 256]⟩ : Shape).Idx → EReal) (y : (⟨3, ![1, 1025, 256]⟩ : Shape).Idx) (l : Fin 256)
    (h1 : (y 1).val = 0) (h2 : (y 2).val = l.val) :
    embedRow a w b cls pe y = cls (ix3 0 0 l) + pe y := by
  obtain rfl : y 2 = l := Fin.ext h2
  unfold embedRow
  exact if_pos h1

/-- Position `r + 1` of a batch element: patch `r` projected, plus the bias, plus the positional embedding. -/
theorem embedRow_succ (a : (⟨3, ![1, 1024, 768]⟩ : Shape).Idx → EReal) (w : (⟨2, ![768, 256]⟩ : Shape).Idx → EReal)
    (b : (⟨2, ![1, 256]⟩ : Shape).Idx → EReal) (cls : (⟨3, ![1, 1, 256]⟩ : Shape).Idx → EReal)
    (pe : (⟨3, ![1, 1025, 256]⟩ : Shape).Idx → EReal) (y : (⟨3, ![1, 1025, 256]⟩ : Shape).Idx) (r : Fin 1024) (l : Fin 256)
    (h1 : (y 1).val = r.val + 1) (h2 : (y 2).val = l.val) :
    embedRow a w b cls pe y = ((∑ k : Fin 768, a (ix3 0 r k) * w (ix2 k l)) + b (ix2 0 l)) + pe y := by
  obtain rfl : y 2 = l := Fin.ext h2
  obtain rfl : patchOf (y 1) = r := patchOf_of_val (y 1) r h1
  unfold embedRow
  exact if_neg (by omega)

/-- An index of a block whose first extent is one has first coordinate zero. -/
theorem eq_ix3_zero {n1 n2 : Nat} (y : (⟨3, ![1, n1, n2]⟩ : Shape).Idx) : y = ix3 0 (y 1) (y 2) := by
  funext a
  match a with
  | ⟨0, _⟩ => exact Subsingleton.elim (α := Fin 1) _ _
  | ⟨1, _⟩ => rfl
  | ⟨2, _⟩ => rfl

/-- When the blocks are batch element `t` of the arrays — the patches', the class token's and the positional
    embeddings' blocks their rows `t`, the weights whole, the bias row the bias — one batch element of the embedding
    is row `t` of the whole embedding. -/
theorem embedRow_eq (P : (⟨3, ![32, 1024, 768]⟩ : Shape).Idx → EReal) (W : (⟨2, ![768, 256]⟩ : Shape).Idx → EReal)
    (b : (⟨1, ![256]⟩ : Shape).Idx → EReal) (cls : (⟨3, ![32, 1, 256]⟩ : Shape).Idx → EReal)
    (pe : (⟨3, ![32, 1025, 256]⟩ : Shape).Idx → EReal)
    (a : (⟨3, ![1, 1024, 768]⟩ : Shape).Idx → EReal) (w : (⟨2, ![768, 256]⟩ : Shape).Idx → EReal)
    (b' : (⟨2, ![1, 256]⟩ : Shape).Idx → EReal) (cls' : (⟨3, ![1, 1, 256]⟩ : Shape).Idx → EReal)
    (pe' : (⟨3, ![1, 1025, 256]⟩ : Shape).Idx → EReal) (t : Fin 32)
    (ha : ∀ (r : Fin 1024) (k : Fin 768), a (ix3 0 r k) = P (ix3 t r k))
    (hw : ∀ (k : Fin 768) (l : Fin 256), w (ix2 k l) = W (ix2 k l))
    (hb : ∀ l : Fin 256, b' (ix2 0 l) = b (ix1 l))
    (hc : ∀ l : Fin 256, cls' (ix3 0 0 l) = cls (ix3 t 0 l))
    (hp : ∀ (j : Fin 1025) (l : Fin 256), pe' (ix3 0 j l) = pe (ix3 t j l))
    (y : (⟨3, ![1, 1025, 256]⟩ : Shape).Idx) :
    embedRow a w b' cls' pe' y = embed P W b cls pe (ix3 t (y 1) (y 2)) := by
  have hpe : pe' y = pe (ix3 t (y 1) (y 2)) := by
    conv_lhs => rw [eq_ix3_zero y]
    exact hp (y 1) (y 2)
  unfold embedRow embed
  show (if (y 1).val = 0 then _ else _) = (if (y 1).val = 0 then _ else _)
  by_cases h0 : (y 1).val = 0
  · rw [if_pos h0, if_pos h0, hpe]
    exact congrArg (· + _) (hc (y 2))
  · rw [if_neg h0, if_neg h0, hpe]
    refine congrArg (· + _) ?_
    show (∑ k : Fin 768, a (ix3 0 (patchOf (y 1)) k) * w (ix2 k (y 2))) + b' (ix2 0 (y 2))
      = (∑ k : Fin 768, P (ix3 t (patchOf (y 1)) k) * W (ix2 k (y 2))) + b (ix1 (y 2))
    rw [hb (y 2)]
    exact congrArg (· + _) (Finset.sum_congr rfl fun k _ => congrArg₂ (· * ·) (ha (patchOf (y 1)) k) (hw k (y 2)))

end Cert.PatchEmbed

end
-- ==== Proof.Reference.lean ====
/-
  The reference computes the embedding.

  Its last stage is `concatenate(cls, proj) + pe` along the sequence axis, `proj = patches · W + b`. Read at an
  index `(t, j, h)`: at `j = 0` the concatenation shows the class token, at `j = r + 1` it shows `proj (t, r, h)`,
  the sum over the 768 entries of patch `r` of entry times weight, plus the bias at `h` (the bias broadcast first
  to a 1 × 1 × 256 array, then over batch and patch). That is `embed` of the patch array, which is kept as it stands
  (the two reshapes and the transposition that build it from the images are never opened).
-/
import proofs.«163680_j65352222376627_2_alg».proof.Proof.Gen.ReferenceIdeal.Read
import proofs.«163680_j65352222376627_2_alg».proof.Proof.Embed

noncomputable section

namespace Cert.PatchEmbed

open Cert.ReferenceIdeal Cert.ReferenceIdeal.Read Idealize.ShloMosaic Idealize.ShloMosaic.ValueIdx

/-- The projection's left factor at `(t, r, h)`, summand `k`, is patch entry `(t, r, k)`. -/
theorem lidx_eq (t : Fin 32) (r : Fin 1024) (h : Fin 256) (k : Fin 768) :
    lidx_main_v3 (ix3 t r h) k = ix3 t r k :=
  funext fun a => Fin.ext (by match a with | ⟨0, _⟩ => rfl | ⟨1, _⟩ => rfl | ⟨2, _⟩ => rfl)

/-- Its right factor is weight `(k, h)`. -/
theorem ridx_eq (t : Fin 32) (r : Fin 1024) (h : Fin 256) (k : Fin 768) :
    ridx_main_v3 (ix3 t r h) k = ix2 k h :=
  funext fun a => Fin.ext (by match a with | ⟨0, _⟩ => rfl | ⟨1, _⟩ => rfl)

/-- The bias broadcast twice, read at `(t, r, h)`, is the bias at `h`. -/
theorem bidx_eq (t : Fin 32) (r : Fin 1024) (h : Fin 256) :
    idx_main_v4 (idx_main_v5 (ix3 t r h)) = ix1 h :=
  funext fun a => Fin.ext (by match a with | ⟨0, _⟩ => rfl)

/-- The projection plus bias at `(t, r, h)`: `(∑ k, P (t, r, k) · W (k, h)) + b h`. -/
theorem proj_apply (x0 : S32x512x512x3.Idx → EReal) (x1 : S768x256.Idx → EReal) (x2 : S256.Idx → EReal)
    (t : Fin 32) (r : Fin 1024) (h : Fin 256) :
    val_main_v6 (F := Ideal) x0 x1 x2 (ix3 t r h)
      = (∑ k : Fin 768, val_main_v2 (F := Ideal) x0 (ix3 t r k) * x1 (ix2 k h)) + x2 (ix1 h) := by
  rw [val_main_v6_apply, val_main_v3_apply, val_main_v5_apply, val_main_v4_apply, bidx_eq]
  show (∑ k : Fin 768, _) + _ = _
  exact congrArg (· + _) (Finset.sum_congr rfl fun k _ => by rw [lidx_eq, ridx_eq])

/-- The reference's result, as a function of its arguments, is the embedding of its patch array. -/
theorem reference_eq_embed (x0 : S32x512x512x3.Idx → EReal) (x1 : S768x256.Idx → EReal) (x2 : S256.Idx → EReal)
    (x3 : S32x1x256.Idx → EReal) (x4 : S32x1025x256.Idx → EReal) :
    val_main_v8 (F := Ideal) x0 x1 x2 x3 x4 = embed (val_main_v2 (F := Ideal) x0) x1 x2 x3 x4 := by
  funext i
  rw [val_main_v8_apply]
  unfold val_main_v7 embed
  show _ + x4 i = _
  by_cases h0 : (i 1).val = 0
  · rw [if_pos h0]
    refine congrArg (· + x4 i) ?_
    exact concatenate_pair_apply_left (t := S32x1025x256) (s₁ := S32x1x256) (s₂ := S32x1024x256) 1 x3
      (val_main_v6 (F := Ideal) x0 x1 x2) _ i rfl (ix3 (i 0) 0 (i 2))
      (fun b => match b with | ⟨0, _⟩ => rfl | ⟨1, _⟩ => h0.symm | ⟨2, _⟩ => rfl)
  · rw [if_neg h0]
    refine congrArg (· + x4 i) ?_
    have hj : (i 1).val < 1025 := (i 1).isLt
    refine (concatenate_pair_apply_right (t := S32x1025x256) (s₁ := S32x1x256) (s₂ := S32x1024x256) 1 x3
      (val_main_v6 (F := Ideal) x0 x1 x2) _ i rfl rfl (ix3 (i 0) (patchOf (i 1)) (i 2))
      (fun b hb => match b, hb with
        | ⟨0, _⟩, _ => rfl
        | ⟨1, _⟩, hb => absurd rfl hb
        | ⟨2, _⟩, _ => rfl)
      (by show (i 1).val - 1 + 1 = (i 1).val; omega)).trans ?_
    exact proj_apply x0 x1 x2 (i 0) (patchOf (i 1)) (i 2)

end Cert.PatchEmbed

end
-- ==== Proof.Payloads.lean ====
/-
  The values the kernel body stores, read at an index, over the extended reals.

  The body works on one batch element. Its first store writes sequence position 0: the class-token block plus
  row 0 of the positional-embedding block (both 1 × 1 × 256; the casts only drop and restore unit axes).
  Its second store writes positions 1 … 1024: the matrix product of the 1024 × 768 patch block with the 768 × 256
  weights into a zero accumulator — at `(r, h)` the sum over `k` of patch entry `(r, k)` times weight `(k, h)`,
  the zero contributing nothing —, plus the bias row broadcast down the 1024 rows, plus rows 1 … 1024 of the
  positional-embedding block.
-/
import proofs.«163680_j65352222376627_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.PatchEmbed

open Cert.KernelIdeal Cert.KernelIdeal.Gen Idealize.ShloMosaic Idealize.ShloMosaic.ValueIdx

/-! ## The matrix product at an index -/

/-- The left operand's row coordinate is the output's row. -/
theorem mm_lhs_row (j : S1024x256.Idx) (q : dot_S1024x768_S768x256_S1024x256_1_0_0_1_n_n.contr.Idx) :
    (dot_S1024x768_S768x256_S1024x256_1_0_0_1_n_n.lhsIdx j q 0).val = (j 0).val := by
  unfold DotDims.lhsIdx
  rw [dif_neg (show ¬(0 : Fin S1024x768.rank) ∈ dot_S1024x768_S768x256_S1024x256_1_0_0_1_n_n.lhsBatch by decide),
    dif_pos (show (0 : Fin S1024x768.rank) ∈ dot_S1024x768_S768x256_S1024x256_1_0_0_1_n_n.lhsNonContracting by decide)]
  rfl

/-- The left operand's column coordinate is the summation index. -/
theorem mm_lhs_col (j : S1024x256.Idx) (q : dot_S1024x768_S768x256_S1024x256_1_0_0_1_n_n.contr.Idx) :
    (dot_S1024x768_S768x256_S1024x256_1_0_0_1_n_n.lhsIdx j q 1).val = (q ⟨0, by decide⟩).val :=
  dot_S1024x768_S768x256_S1024x256_1_0_0_1_n_n.lhsIdx_val_of_single rfl j q

/-- The right operand's row coordinate is the summation index. -/
theorem mm_rhs_row (j : S1024x256.Idx) (q : dot_S1024x768_S768x256_S1024x256_1_0_0_1_n_n.contr.Idx) :
    (dot_S1024x768_S768x256_S1024x256_1_0_0_1_n_n.rhsIdx j q 0).val = (q ⟨0, by decide⟩).val :=
  dot_S1024x768_S768x256_S1024x256_1_0_0_1_n_n.rhsIdx_val_of_single rfl j q

/-- The right operand's column coordinate is the output's column. -/
theorem mm_rhs_col (j : S1024x256.Idx) (q : dot_S1024x768_S768x256_S1024x256_1_0_0_1_n_n.contr.Idx) :
    (dot_S1024x768_S768x256_S1024x256_1_0_0_1_n_n.rhsIdx j q 1).val = (j 1).val := by
  unfold DotDims.rhsIdx
  rw [dif_neg (show ¬(1 : Fin S768x256.rank) ∈ dot_S1024x768_S768x256_S1024x256_1_0_0_1_n_n.rhsBatch by decide),
    dif_pos (show (1 : Fin S768x256.rank) ∈ dot_S1024x768_S768x256_S1024x256_1_0_0_1_n_n.rhsNonContracting by decide)]
  rfl

/-- The product of a 1024 × 768 block with a 768 × 256 block into a zero accumulator, at `(r, h)`: the sum over `k` of
    left entry `(r, k)` times right entry `(k, h)`. -/
theorem mm_apply (lhs : FVec Ideal S1024x768 .bf16) (rhs : FVec Ideal S768x256 .bf16) (r : Fin 1024) (h : Fin 256) :
    matmul dot_S1024x768_S768x256_S1024x256_1_0_0_1_n_n none lhs rhs (constant (F := Ideal) S1024x256 .f32 0x00000000#32) (ix2 r h)
      = ∑ k : Fin 768, lhs (ix2 r k) * rhs (ix2 k h) := by
  simp only [matmul]
  rw [Ideal.matmul_constant_zero_apply,
    ← Equiv.sum_comp (ValueIdx.contrEquiv1 dot_S1024x768_S768x256_S1024x256_1_0_0_1_n_n 768 rfl rfl).symm]
  refine Finset.sum_congr rfl fun k _ => ?_
  have hk := ValueIdx.contrEquiv1_symm_val dot_S1024x768_S768x256_S1024x256_1_0_0_1_n_n 768 rfl rfl k
  have el : dot_S1024x768_S768x256_S1024x256_1_0_0_1_n_n.lhsIdx (ix2 r h)
      ((ValueIdx.contrEquiv1 dot_S1024x768_S768x256_S1024x256_1_0_0_1_n_n 768 rfl rfl).symm k) = ix2 r k :=
    funext fun a => Fin.ext (by
      match a with
      | ⟨0, _⟩ => exact mm_lhs_row _ _
      | ⟨1, _⟩ => exact (mm_lhs_col _ _).trans hk)
  have er : dot_S1024x768_S768x256_S1024x256_1_0_0_1_n_n.rhsIdx (ix2 r h)
      ((ValueIdx.contrEquiv1 dot_S1024x768_S768x256_S1024x256_1_0_0_1_n_n 768 rfl rfl).symm k) = ix2 k h :=
    funext fun a => Fin.ext (by
      match a with
      | ⟨0, _⟩ => exact (mm_rhs_row _ _).trans hk
      | ⟨1, _⟩ => exact mm_rhs_col _ _)
  rw [el, er]

/-! ## Unit axes -/

/-- An index `(0, r, l)` with its leading unit coordinate dropped is `(r, l)`. -/
theorem tail_ix3 {n0 n1 : Nat} (r : Fin n0) (l : Fin n1) :
    (fun a : Fin 2 => (ix3 (0 : Fin 1) r l) a.succ) = ix2 r l :=
  funext fun a => by match a with | ⟨0, _⟩ => rfl | ⟨1, _⟩ => rfl

/-- A block `1 × n0 × n1` with its unit axis dropped, at `(r, l)`, is the block at `(0, r, l)`. -/
theorem dropUnit_apply {n0 n1 : Nat} (v : (⟨3, ![1, n0, n1]⟩ : Shape).Idx → EReal)
    (hc : (⟨3, ![1, n0, n1]⟩ : Shape).ShapeCasts ⟨2, ![n0, n1]⟩) (r : Fin n0) (l : Fin n1) :
    shapeCast ⟨2, ![n0, n1]⟩ v hc (ix2 r l) = v (ix3 0 r l) :=
  (shapeCast_dropUnit_apply ![n0, n1] v hc (ix2 r l)).trans
    (congrArg v (funext fun a => by match a with | ⟨0, _⟩ => rfl | ⟨1, _⟩ => rfl | ⟨2, _⟩ => rfl))

/-- A block `n0 × n1` given a leading unit axis, at `(0, r, l)`, is the block at `(r, l)`. -/
theorem addUnit_apply {n0 n1 : Nat} (v : (⟨2, ![n0, n1]⟩ : Shape).Idx → EReal)
    (hc : (⟨2, ![n0, n1]⟩ : Shape).ShapeCasts ⟨3, ![1, n0, n1]⟩) (r : Fin n0) (l : Fin n1) :
    shapeCast ⟨3, ![1, n0, n1]⟩ v hc (ix3 0 r l) = v (ix2 r l) :=
  (shapeCast_addUnit_apply ![n0, n1] v hc (ix3 0 r l)).trans (congrArg v (tail_ix3 r l))

/-! ## The two stores -/

/-- The first store, at feature `l`: class token plus positional embedding. -/
theorem pay1_apply (v5 v7 : Vec Ideal S1x1x256 .f32) (l : Fin 256) :
    k0_pay1 (F := Ideal) v5 v7 (ix3 0 0 l) = v5 (ix3 0 0 l) + v7 (ix3 0 0 l) := by
  unfold k0_pay1
  refine (addUnit_apply _ _ 0 l).trans ?_
  show shapeCast S1x256 v5 _ (ix2 0 l) + shapeCast S1x256 v7 _ (ix2 0 l) = _
  rw [dropUnit_apply v5 _ 0 l, dropUnit_apply v7 _ 0 l]

/-- The bias row broadcast down the rows, at `(r, l)`, is the bias at `l`. -/
theorem bias_apply (v13 : Vec Ideal S1x256 .f32) (hc : S1x256.ShapeCasts S1x256) (hb : S1x256.Broadcasts S1024x256)
    (r : Fin 1024) (l : Fin 256) :
    broadcastTo S1024x256 (shapeCast S1x256 v13 hc) hb (ix2 r l) = v13 (ix2 0 l) := by
  rw [shapeCast_self]
  exact broadcastTo_apply v13 hb (ix2 r l) (ix2 0 l) (fun a => by
    match a with
    | ⟨0, _⟩ => show 0 = if (1 : Nat) = 1 then 0 else _; rw [if_pos rfl]
    | ⟨1, _⟩ => show l.val = if (256 : Nat) = 1 then 0 else l.val; rw [if_neg (by decide)])

/-- The second store, at row `r` and feature `l`: patch `r` projected, plus the bias, plus the positional embedding. -/
theorem pay2_apply (v0 : Vec Ideal S1x1024x768 .bf16) (v2 : Vec Ideal S768x256 .bf16) (v13 : Vec Ideal S1x256 .f32)
    (v17 : Vec Ideal S1x1024x256 .f32) (r : Fin 1024) (l : Fin 256) :
    k0_pay2 (F := Ideal) v0 v2 v13 v17 (ix3 0 r l)
      = ((∑ k : Fin 768, v0 (ix3 0 r k) * v2 (ix2 k l)) + v13 (ix2 0 l)) + v17 (ix3 0 r l) := by
  unfold k0_pay2
  refine (addUnit_apply _ _ r l).trans ?_
  show (matmul dot_S1024x768_S768x256_S1024x256_1_0_0_1_n_n none (shapeCast S1024x768 v0 _) (shapeCast S768x256 v2 _)
      (constant (F := Ideal) S1024x256 .f32 0x00000000#32) (ix2 r l)
      + broadcastTo S1024x256 (shapeCast S1x256 v13 _) _ (ix2 r l)) + shapeCast S1024x256 v17 _ (ix2 r l) = _
  rw [mm_apply, bias_apply, dropUnit_apply v17 _ r l, shapeCast_self]
  refine congrArg (· + _) (congrArg (· + _) (Finset.sum_congr rfl fun k _ => ?_))
  rw [dropUnit_apply v0 _ r k]

end Cert.PatchEmbed

end
-- ==== Proof.Block.lean ====
/-
  What the kernel body leaves in its output block at one grid point: one batch element of the embedding.

  The body's two stores split the 1 × 1025 × 256 output block by sequence position: the first writes position 0,
  the second positions 1 … 1024. Each store's value, at its own local index, is `embedRow` of the body's input
  blocks at the block index the store's rectangle puts it at — position `0`, resp. `r + 1` for local row `r` —,
  and the two rectangles cover the block; so the block, read back, is `embedRow` everywhere.
-/
import proofs.«163680_j65352222376627_2_alg».proof.Proof.Gen.KernelIdeal.Frame
import proofs.«163680_j65352222376627_2_alg».proof.Proof.Embed
import proofs.«163680_j65352222376627_2_alg».proof.Proof.Payloads

noncomputable section

namespace Cert.PatchEmbed

open Cert.KernelIdeal Cert.KernelIdeal.Gen Idealize.ShloMosaic Idealize.ShloMosaic.TcCoe Idealize.ShloMosaic.ValueIdx
open Idealize.SL.Sem

theorem zeros2 : (![0, 0] : Fin 2 → Nat) = fun _ => 0 :=
  funext fun a => by match a with | ⟨0, _⟩ => rfl | ⟨1, _⟩ => rfl

theorem zeros3 : (![0, 0, 0] : Fin 3 → Nat) = fun _ => 0 :=
  funext fun a => by match a with | ⟨0, _⟩ => rfl | ⟨1, _⟩ => rfl | ⟨2, _⟩ => rfl

/-- An index of a 1 × 1 × n block is `(0, 0, l)`. -/
theorem eq_ix3_zero_zero {n : Nat} (x : (⟨3, ![1, 1, n]⟩ : Shape).Idx) : x = ix3 0 0 (x 2) := by
  funext a
  match a with
  | ⟨0, _⟩ => exact Subsingleton.elim (α := Fin 1) _ _
  | ⟨1, _⟩ => exact Subsingleton.elim (α := Fin 1) _ _
  | ⟨2, _⟩ => rfl

/-- The output block after the body, as a function of the input blocks the body found: patches `x0`, weights `x1`,
    bias row `x2`, class token `x3`, positional embeddings `x4`. -/
theorem block_eq (c : Dev nD) (i : grid0.Coords)
    (a1 : Memref sig .tc .vmem S1x1024x768 .bf16) (h1 : a1.IsWhole) (a2 : Memref sig .tc .vmem S768x256 .bf16) (h2 : a2.IsWhole)
    (a3 : Memref sig .tc .vmem S1x256 .f32) (h3 : a3.IsWhole) (a4 : Memref sig .tc .vmem S1x1x256 .f32) (h4 : a4.IsWhole)
    (a5 : Memref sig .tc .vmem S1x1025x256 .f32) (h5 : a5.IsWhole) (a6 : Memref sig .tc .vmem S1x1025x256 .f32) (h6 : a6.IsWhole)
    (x0 : Vec Ideal S1x1024x768 .bf16) (x1 : Vec Ideal S768x256 .bf16) (x2 : Vec Ideal S1x256 .f32)
    (x3 : Vec Ideal S1x1x256 .f32) (x4 : Vec Ideal S1x1025x256 .f32) :
    out0_A_5 (F := Ideal) c i a1 h1 a2 h2 a3 h3 a4 h4 a5 h5 a6 h6 x0 x1 x2 x3 x4 = embedRow x0 x1 x2 x3 x4 := by
  unfold out0_A_5
  rw [View.read_writes_junk_eq_canon]
  funext y
  refine View.canon_apply_of_pieces (embedRow x0 x1 x2 x3 x4) _ ?_ y
    (cover0_A_5 c i a1 h1 a2 h2 a3 h3 a4 h4 a5 h5 a6 h6 x0 x1 x2 x3 x4 y)
  unfold kernelRun0_A
  dsimp only
  refine List.forall_mem_cons.mpr ⟨?_, List.forall_mem_cons.mpr ⟨?_, fun _ h => absurd h List.not_mem_nil⟩⟩
  · -- positions 1 … 1024
    intro (x : (⟨3, ![1, 1024, 256]⟩ : Shape).Idx)
    obtain ⟨r, l, rfl⟩ : ∃ (r : Fin 1024) (l : Fin 256), x = ix3 0 r l := ⟨x 1, x 2, eq_ix3_zero x⟩
    simp only [View.readAt_eq_ld, h1.read_unread, h2.read_unread, h3.read_unread, h5.read_unread,
      View.ld_unit_zero (S := S1x1024x768) zeros3, View.ld_unit_zero (S := S768x256) zeros2,
      View.ld_unit_zero (S := S1x256) zeros2]
    refine (pay2_apply x0 x1 x2 _ r l).trans ?_
    exact (embedRow_succ x0 x1 x2 x3 x4 _ r l (by show 1 + 1 * r.val = r.val + 1; omega)
      (by show 0 + 1 * l.val = l.val; omega)).symm
  · -- position 0
    intro (x : (⟨3, ![1, 1, 256]⟩ : Shape).Idx)
    obtain ⟨l, rfl⟩ : ∃ l : Fin 256, x = ix3 0 0 l := ⟨x 2, eq_ix3_zero_zero x⟩
    simp only [View.readAt_eq_ld, h4.read_unread, h5.read_unread, View.ld_unit_zero (S := S1x1x256) zeros3]
    refine (pay1_apply x3 _ l).trans ?_
    exact (embedRow_zero x0 x1 x2 x3 x4 _ l (by show 0 + 1 * 0 = 0; rfl)
      (by show 0 + 1 * l.val = l.val; omega)).symm

end Cert.PatchEmbed

end
-- ==== Proof.Arrays.lean ====
/-
  From blocks to the array: after the run the kernel's result array holds the embedding of its arguments.

  The grid has one point per batch element. At point `t` every window that moves — the patches', the class token's,
  the positional embeddings' and the output's — is at block `(t, 0, 0)`, that is, at batch row `t` of its array;
  the weights' and the bias' windows stay at their one block. The arrays the region finds are the arguments
  themselves, except three that @main writes first: the patch array (the images re-laid by a reshape, a
  transposition and a reshape, then a change of float format, which over the extended reals changes nothing),
  the weights (the same change of format) and the bias (given a unit axis in front). So the input blocks at point
  `t` are batch row `t` of the patch array, the weights, the bias as a row, and rows `t` of the class tokens and
  of the positional embeddings; the body turns them into `embedRow`, which is then row `t` of `embed`
  (`embedRow_eq`). Every index `(t, j, h)` of the result lies in point `t`'s block, so the whole array is `embed`.
-/
import proofs.«163680_j65352222376627_2_alg».proof.Proof.Gen.KernelIdeal.Value
import proofs.«163680_j65352222376627_2_alg».proof.Proof.Block
import Idealize.ShloMosaic.Lib.StableHlo.Run

noncomputable section

namespace Cert.PatchEmbed

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The patch array of the images `x`: reshaped to (batch, 32, 16, 32, 16, 3), the two middle axes exchanged,
    reshaped to (batch, 1024 patches, 768 entries). It is never opened: both programs build it the same way. -/
def patches (x : S32x512x512x3.Idx → EReal) : S32x1024x768.Idx → EReal :=
  shapeCast S32x1024x768
    (transpose S32x32x32x16x16x3 [0, 1, 3, 2, 4, 5]
      (shapeCast S32x32x16x32x16x3 x shapeCasts_S32x512x512x3_S32x32x16x32x16x3)
      transposes_S32x32x16x32x16x3_S32x32x32x16x16x3_0_1_3_2_4_5)
    shapeCasts_S32x32x32x16x16x3_S32x1024x768

/-- The embedding of the kernel's arguments on core `c`. -/
def result (c : Dev nD) : S32x1025x256.Idx → EReal :=
  embed (patches (m ((c : Thread nD τ).loc main_arg0))) (m ((c : Thread nD τ).loc main_arg1))
    (m ((c : Thread nD τ).loc main_arg2)) (m ((c : Thread nD τ).loc main_arg3)) (m ((c : Thread nD τ).loc main_arg4))

/-! ## The arrays @main writes before the region -/

/-- The region finds the patch array in window 0's array. -/
theorem V_patches (c : Dev nD) :
    (V m c main_v3 : S32x1024x768.Idx → EReal) = patches (m ((c : Thread nD τ).loc main_arg0)) := by
  dsimp only [V, hostOps0]; after_results; rfl

/-- It finds the weights in window 1's array. -/
theorem V_weights (c : Dev nD) :
    (V m c main_v4 : S768x256.Idx → EReal) = m ((c : Thread nD τ).loc main_arg1) := by
  dsimp only [V, hostOps0]; after_results; rfl

/-- It finds the bias, as a one-row array, in window 2's array. -/
theorem V_bias (c : Dev nD) :
    (V m c main_v5 : S1x256.Idx → EReal)
      = shapeCast S1x256 (m ((c : Thread nD τ).loc main_arg2)) shapeCasts_S256_S1x256 := by
  dsimp only [V, hostOps0]; after_results; rfl

/-- The one-row bias array at `(0, l)` is the bias at `l`. -/
theorem bias_row_apply (b : S256.Idx → EReal) (l : Fin 256) :
    shapeCast S1x256 b shapeCasts_S256_S1x256 (ix2 0 l) = b (ix1 l) :=
  (shapeCast_addUnit_apply ![256] b shapeCasts_S256_S1x256 (ix2 0 l)).trans
    (congrArg b (funext fun a => by match a with | ⟨0, _⟩ => rfl))

/-! ## Where the windows are at point `t` -/

/-- The printed index maps, decided over the 32 grid points: the patches', class tokens', positional embeddings' and
    output's windows are at block `(t, 0, 0)`, the weights' and the bias' at block `(0, 0)`. -/
theorem index_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- A grid point is one of the 32 batch elements. -/
theorem point_lt (t : Fin cfg0.N) : t.val < 32 := by
  have h : t.val < cfg0.N := t.isLt
  have hN : cfg0.N = 32 := N_0
  omega

/-! ## The input blocks at point `t` -/

/-- The patches' block at point `t` is batch row `t` of the patch array. -/
theorem patches_block (c : Dev nD) (t : Fin cfg0.N) (r : Fin 1024) (k : Fin 768) :
    (iblk m c 0 t : S1x1024x768.Idx → EReal) (ix3 0 r k)
      = patches (m ((c : Thread nD τ).loc main_arg0)) (ix3 ⟨t.val, point_lt t⟩ r k) := by
  obtain ⟨⟨e0, e1, e2⟩, -⟩ := index_facts t
  unfold iblk
  rw [View.read_apply]
  show V m c main_v3 _ = _
  rw [V_patches]
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 768 + 1 * k.val = k.val; omega

/-- The weights' block is the weights. -/
theorem weights_block (c : Dev nD) (t : Fin cfg0.N) (k : Fin 768) (l : Fin 256) :
    (iblk m c 1 t : S768x256.Idx → EReal) (ix2 k l) = m ((c : Thread nD τ).loc main_arg1) (ix2 k l) := by
  obtain ⟨-, ⟨e0, e1⟩, -⟩ := index_facts t
  unfold iblk
  rw [View.read_apply]
  show V m c main_v4 _ = _
  rw [V_weights]
  refine congrArg _ (funext fun a => Fin.ext ?_)
  match a with
  | ⟨0, _⟩ => show win0_1.index t (0 : Fin 2) * 768 + 1 * k.val = k.val; omega
  | ⟨1, _⟩ => show win0_1.index t (1 : Fin 2) * 256 + 1 * l.val = l.val; omega

/-- The bias' block at `(0, l)` is the bias at `l`. -/
theorem bias_block (c : Dev nD) (t : Fin cfg0.N) (l : Fin 256) :
    (iblk m c 2 t : S1x256.Idx → EReal) (ix2 0 l) = m ((c : Thread nD τ).loc main_arg2) (ix1 l) := by
  obtain ⟨-, -, ⟨e0, e1⟩, -⟩ := index_facts t
  unfold iblk
  rw [View.read_apply]
  show V m c main_v5 _ = _
  rw [V_bias]
  refine Eq.trans (congrArg _ (funext fun a => Fin.ext ?_)) (bias_row_apply _ l)
  match a with
  | ⟨0, _⟩ => show win0_2.index t (0 : Fin 2) * 1 + 1 * 0 = 0; omega
  | ⟨1, _⟩ => show win0_2.index t (1 : Fin 2) * 256 + 1 * l.val = l.val; omega

/-- The class token's block is row `t` of the class tokens. -/
theorem cls_block (c : Dev nD) (t : Fin cfg0.N) (l : Fin 256) :
    (iblk m c 3 t : S1x1x256.Idx → EReal) (ix3 0 0 l)
      = m ((c : Thread nD τ).loc main_arg3) (ix3 ⟨t.val, point_lt t⟩ 0 l) := by
  obtain ⟨-, -, -, ⟨e0, e1, e2⟩, -⟩ := index_facts t
  unfold iblk
  rw [View.read_apply]
  show V m c main_arg3 _ = _
  rw [V_main_arg3]
  refine congrArg _ (funext fun a => Fin.ext ?_)
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 256 + 1 * l.val = l.val; omega

/-- The positional embeddings' block is row `t` of the positional embeddings. -/
theorem pe_block (c : Dev nD) (t : Fin cfg0.N) (j : Fin 1025) (l : Fin 256) :
    (iblk m c 4 t : S1x1025x256.Idx → EReal) (ix3 0 j l)
      = m ((c : Thread nD τ).loc main_arg4) (ix3 ⟨t.val, point_lt t⟩ j l) := by
  obtain ⟨-, -, -, -, ⟨e0, e1, e2⟩, -⟩ := index_facts t
  unfold iblk
  rw [View.read_apply]
  show V m c main_arg4 _ = _
  rw [V_main_arg4]
  refine congrArg _ (funext fun a => Fin.ext ?_)
  match a with
  | ⟨0, _⟩ => show win0_4.index t (0 : Fin 3) * 1 + 1 * 0 = t.val; omega
  | ⟨1, _⟩ => show win0_4.index t (1 : Fin 3) * 1025 + 1 * j.val = j.val; omega
  | ⟨2, _⟩ => show win0_4.index t (2 : Fin 3) * 256 + 1 * l.val = l.val; omega

/-! ## What each point writes back, and the array -/

/-- What point `t` writes back is block `t` of the embedding of the arguments. -/
theorem flushed_eq (c : Dev nD) (t : Fin cfg0.N) :
    (dats m 0 c).flushed 5 t = ((cfg0.win 5).blk t).view.read (Elt Ideal) (result m c) := by
  rw [Cert.KernelIdeal.Value.flushed5_A, block_eq]
  obtain ⟨-, -, -, -, -, ⟨e0, e1, e2⟩⟩ := index_facts t
  refine funext fun (y : (⟨3, ![1, 1025, 256]⟩ : Shape).Idx) => ?_
  show embedRow (iblk m c 0 t) (iblk m c 1 t) (iblk m c 2 t) (iblk m c 3 t) (iblk m c 4 t) y
    = result m c (((cfg0.win 5).blk t).view.emb y)
  have he : ((cfg0.win 5).blk t).view.emb y = ix3 ⟨t.val, point_lt t⟩ (y 1) (y 2) :=
    funext fun a => Fin.ext (by
      match a with
      | ⟨0, _⟩ =>
        have h0 : (y 0).val = 0 := by have h1 : (y 0).val < 1 := (y 0).isLt; omega
        show win0_5.index t (0 : Fin 3) * 1 + 1 * (y 0).val = t.val; omega
      | ⟨1, _⟩ => show win0_5.index t (1 : Fin 3) * 1025 + 1 * (y 1).val = (y 1).val; omega
      | ⟨2, _⟩ => show win0_5.index t (2 : Fin 3) * 256 + 1 * (y 2).val = (y 2).val; omega)
  rw [he]
  exact embedRow_eq (patches (m ((c : Thread nD τ).loc main_arg0))) (m ((c : Thread nD τ).loc main_arg1))
    (m ((c : Thread nD τ).loc main_arg2)) (m ((c : Thread nD τ).loc main_arg3)) (m ((c : Thread nD τ).loc main_arg4))
    (iblk m c 0 t) (iblk m c 1 t) (iblk m c 2 t) (iblk m c 3 t) (iblk m c 4 t) ⟨t.val, point_lt t⟩
    (patches_block m c t) (weights_block m c t) (bias_block m c t) (cls_block m c t) (pe_block m c t) y

/-- An index of the result array is in point `t`'s block iff each coordinate is in the block's range. -/
theorem mem_blk (t : Fin cfg0.N) (i : S32x1025x256.Idx) :
    i ∈ ((cfg0.win 5).blk t).view.set ↔ ∀ a : Fin 3, win0_5.index t a * S1x1025x256.size a ≤ (i a).val
      ∧ (i a).val < win0_5.index t a * S1x1025x256.size a + S1x1025x256.size a := by
  show i ∈ ((View.whole main_v6).slice (win0_5.rect t)).set ↔ _
  rw [View.set_slice_whole, Rect.mem_set_unit]
  exact Iff.rfl

/-- Every index `(t, j, h)` of the result array is in the block point `t` writes back. -/
theorem covered (i : S32x1025x256.Idx) :
    ∃ t : Fin cfg0.N, (cfg0.win 5).flush t = true ∧ i ∈ ((cfg0.win 5).blk t).view.set := by
  have hi0 : (i 0).val < 32 := (i 0).isLt
  have hi1 : (i 1).val < 1025 := (i 1).isLt
  have hi2 : (i 2).val < 256 := (i 2).isLt
  refine ⟨⟨(i 0).val, by rw [show cfg0.N = 32 from N_0]; exact hi0⟩, flush0_5 _, ?_⟩
  obtain ⟨-, -, -, -, -, ⟨e0, e1, e2⟩⟩ := index_facts ⟨(i 0).val, by rw [show cfg0.N = 32 from N_0]; exact hi0⟩
  rw [mem_blk]
  intro a
  match a with
  | ⟨0, _⟩ => show win0_5.index _ (0 : Fin 3) * 1 ≤ (i 0).val ∧ (i 0).val < win0_5.index _ (0 : Fin 3) * 1 + 1; rw [e0]; dsimp only; omega
  | ⟨1, _⟩ => show win0_5.index _ (1 : Fin 3) * 1025 ≤ (i 1).val ∧ (i 1).val < win0_5.index _ (1 : Fin 3) * 1025 + 1025; rw [e1]; omega
  | ⟨2, _⟩ => show win0_5.index _ (2 : Fin 3) * 256 ≤ (i 2).val ∧ (i 2).val < win0_5.index _ (2 : Fin 3) * 256 + 256; rw [e2]; omega

/-- After the run the result array holds the embedding of the arguments. -/
theorem final (c : Dev nD) : (dats m 0 c).arrAt 5 cfg0.N = result m c :=
  (dats m 0 c).arrAt_eq_of_cover 5 (result m c) (fun t _ => flushed_eq m c t) covered

/-- The kernel's run, read: every weakly fair execution terminates with the result array at the embedding of the
    arguments and the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.PatchEmbed

end
-- ==== Proof.lean ====
/-
  A fused patch embedding against its reference, over the extended reals.

  Both programs cut each 512 × 512 × 3 image into 1024 patches of 16 × 16 × 3 = 768 numbers — the same reshape,
  transposition and reshape of the same argument, so the patch array `P` is one term on both sides and is never
  opened — and compute, for batch element `t`, sequence position `j` and feature `h`,

      out t 0       h = cls t 0 h + pe t 0 h
      out t (1 + r) h = ((∑ k, P t r k · W k h) + b h) + pe t (1 + r) h                      (`PatchEmbed.embed`).

  The reference does it with one matrix product over all batch elements, a broadcast bias, a concatenation with the
  class tokens along the sequence axis and one addition of the positional embeddings (`reference_eq_embed`). The
  kernel does it one batch element per grid point: a matrix product of that element's patch block with the weights
  into a zero accumulator, the bias row broadcast down the rows, and two stores, position 0 and positions 1 … 1024,
  each adding its rows of the positional-embedding block (`block_eq`); its blocks are the batch rows of the arrays,
  and the 32 output blocks fill the result array (`PatchEmbed.run`). The changes of float format the kernel makes
  before its matrix product are the identity on extended reals, a sum into a zero accumulator is the sum, and both
  sides group their additions the same way: the two results are the same function of the arguments with no
  appeal to finiteness, so the precondition is never opened.

  The three frames are the generated ones (the reference's is its generated run with the result dropped); the
  idealization rewrote nothing, so `preserves` is `True`.
-/
import proofs.«163680_j65352222376627_2_alg».proof.Defs
import proofs.«163680_j65352222376627_2_alg».proof.Proof.Gen.Kernel
import proofs.«163680_j65352222376627_2_alg».proof.Proof.Gen.Kernel.Skeleton
import proofs.«163680_j65352222376627_2_alg».proof.Proof.Gen.Kernel.Launch
import proofs.«163680_j65352222376627_2_alg».proof.Proof.Gen.Kernel.Points
import proofs.«163680_j65352222376627_2_alg».proof.Proof.Gen.Kernel.Frame
import proofs.«163680_j65352222376627_2_alg».proof.Proof.Gen.KernelIdeal
import proofs.«163680_j65352222376627_2_alg».proof.Proof.Gen.KernelIdeal.Skeleton
import proofs.«163680_j65352222376627_2_alg».proof.Proof.Gen.KernelIdeal.Launch
import proofs.«163680_j65352222376627_2_alg».proof.Proof.Gen.KernelIdeal.Points
import proofs.«163680_j65352222376627_2_alg».proof.Proof.Gen.KernelIdeal.Frame
import proofs.«163680_j65352222376627_2_alg».proof.Proof.Gen.ReferenceIdeal
import proofs.«163680_j65352222376627_2_alg».proof.Proof.Gen.KernelIdeal.Value
import proofs.«163680_j65352222376627_2_alg».proof.Proof.Gen.ReferenceIdeal.Run
import proofs.«163680_j65352222376627_2_alg».proof.Proof.Gen.ReferenceIdeal.Read
import proofs.«163680_j65352222376627_2_alg».proof.Proof.Gen.Pre_finite_inputs
import proofs.«163680_j65352222376627_2_alg».proof.Proof.Reference
import proofs.«163680_j65352222376627_2_alg».proof.Proof.Arrays
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array ends at the embedding of its arguments
    (`PatchEmbed.run`) and the reference's at the embedding of its own (`reference_eq_embed`), the patch array built
    the same way from the same images. -/
theorem algebraic : Cert.algebraic_KernelIdeal_ReferenceIdeal := by
  intro m ρ m' ρ' _ hagree
  refine ⟨fun c => Cert.PatchEmbed.result m c, Cert.PatchEmbed.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v8_eq _ _ _ _ _).trans
    ((Cert.PatchEmbed.reference_eq_embed _ _ _ _ _).trans ?_)
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
